-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x768 : Shape := ⟨2, ![64, 768]⟩
abbrev S64x512x768 : Shape := ⟨3, ![64, 512, 768]⟩
abbrev S1536x2048 : Shape := ⟨2, ![1536, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S64x768 : S_.BroadcastsInDim S64x768 (![] : Fin 0 → Fin S64x768.rank)
  reducesTo_S64x768_S_d0_1 : S64x768.ReducesTo [0, 1] S_
  h_S_ : 0 < S_.numel
  bcast_S_S64x512x768 : S_.BroadcastsInDim S64x512x768 (![] : Fin 0 → Fin S64x512x768.rank)
  reducesTo_S64x512x768_S_d0_1_2 : S64x512x768.ReducesTo [0, 1, 2] S_
  bcast_S_S1536x2048 : S_.BroadcastsInDim S1536x2048 (![] : Fin 0 → Fin S1536x2048.rank)
  reducesTo_S1536x2048_S_d0_1 : S1536x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S2048x1024 .f32) (main_arg5 : FVec F S1024 .f32) (main_arg6 : FVec F S1024x1 .f32) (main_arg7 : FVec F S1 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S64x768 .f32) (main_arg1 : FVec F S64x512x768 .f32) (main_arg2 : FVec F S1536x2048 .f32) (main_arg3 : FVec F S2048 .f32) (main_arg4 : FVec F S2048x1024 .f32) (main_arg5 : FVec F S1024 .f32) (main_arg6 : FVec F S1024x1 .f32) (main_arg7 : FVec F S1 .f32) : IVec S_ 1 :=
  let main_v0 : FVec F S64x768 .f32 := Host.absf main_arg0
  let main_cst : FVec F S_ .f32 := constant S_ .f32 0x7F800000#32
  let main_v1 : FVec F S64x768 .f32 := broadcastInDim S64x768 ![] bcast_S_S64x768 main_cst
  let main_v2 : IVec S64x768 1 := cmpf .olt main_v0 main_v1
  let main_c : IVec S_ 1 := constantI S_ 1 1#1
  let main_v3 : IVec S_ 1 := (fun x v => Host.reduce IntOp.andi x v reducesTo_S64x768_S_d0_1 h_S_) main_v2 main_c
  let main_v4 : FVec F S64x512x768 .f32 := Host.absf main_arg1
  let main_cst_0 : FVec F S_ .f32 := constant S_ .f32 0x7F800000#32
  let main_v5 : FVec F S64x512x768 .f32 := broadcastInDim S64x512x768 ![] bcast_S_S64x512x768 main_cst_0
  let main_v6 : IVec S64x512x768 1 := cmpf .olt main_v4 main_v5
  let main_c_1 : IVec S_ 1 := constantI S_ 1 1#1
  let main_v7 : IVec S_ 1 := (fun x v => Host.reduce IntOp.andi x v reducesTo_S64x512x768_S_d0_1_2 h_S_) main_v6 main_c_1
  let main_v8 : IVec S_ 1 := andi main_v3 main_v7
  let main_v9 : FVec F S1536x2048 .f32 := Host.absf main_arg2
  let main_cst_2 : FVec F S_ .f32 := constant S_ .f32 0x7F800000#32
  let main_v10 : FVec F S1536x2048 .f32 := broadcastInDim S1536x2048 ![] bcast_S_S1536x2048 main_cst_2
  let main_v11 : IVec S1536x2048 1 := cmpf .olt main_v9 main_v10
  let main_c_3 : IVec S_ 1 := constantI S_ 1 1#1
  let main_v12 : IVec S_ 1 := (fun x v => Host.reduce IntOp.andi x v reducesTo_S1536x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S64x768 : Shape := ⟨2, ![64, 768]⟩
abbrev S64x512x768 : Shape := ⟨3, ![64, 512, 768]⟩
abbrev S1536x2048 : Shape := ⟨2, ![1536, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S512x64 : Shape := ⟨2, ![512, 64]⟩
abbrev S64x8x768 : Shape := ⟨3, ![64, 8, 768]⟩
abbrev S8x64 : Shape := ⟨2, ![8, 64]⟩
abbrev S64x1x768 : Shape := ⟨3, ![64, 1, 768]⟩
abbrev S64x8x1536 : Shape := ⟨3, ![64, 8, 1536]⟩
abbrev S512x1536 : Shape := ⟨2, ![512, 1536]⟩
abbrev S512x2048 : Shape := ⟨2, ![512, 2048]⟩
abbrev S1x2048 : Shape := ⟨2, ![1, 2048]⟩
abbrev S512x1024 : Shape := ⟨2, ![512, 1024]⟩
abbrev S1x1024 : Shape := ⟨2, ![1, 1024]⟩
abbrev S512x1 : Shape := ⟨2, ![512, 1]⟩
abbrev S1x1 : Shape := ⟨2, ![1, 1]⟩
abbrev S64x8 : Shape := ⟨2, ![64, 8]⟩
abbrev S64x512 : Shape := ⟨2, ![64, 512]⟩

abbrev nBuf : Space → Nat
  | .hbm => 13
  | .vmem => 11
  | .smem => 0
  | _ => 0

abbrev bufTy : (tb : Table) → Fin (tcTables nBuf tb) → BufTy
  | .hbm, ⟨0, _⟩ => ⟨S64x768, .f32⟩
  | .hbm, ⟨1, _⟩ => ⟨S64x512x768, .f32⟩
  | .hbm, ⟨2, _⟩ => ⟨S1536x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S1536x2048, .bf16⟩
  | .hbm, ⟨9, _⟩ => ⟨S2048x1024, .bf16⟩
  | .hbm, ⟨10, _⟩ => ⟨S1024x1, .bf16⟩
  | .hbm, ⟨11, _⟩ => ⟨S512x64, .f32⟩
  | .hbm, ⟨12, _⟩ => ⟨S64x512, .f32⟩
  | .local _ .vmem, ⟨0, _⟩ => ⟨S64x8x768, .f32⟩
  | .local _ .vmem, ⟨1, _⟩ => ⟨S64x8x768, .f32⟩
  | .local _ .vmem, ⟨2, _⟩ => ⟨S64x768, .f32⟩
  | .local _ .vmem, ⟨3, _⟩ => ⟨S1536x2048, .bf16⟩
  | .local _ .vmem, ⟨4, _⟩ => ⟨S2048, .f32⟩
  | .local _ .vmem, ⟨5, _⟩ => ⟨S2048x1024, .bf16⟩
  | .local _ .vmem, ⟨6, _⟩ => ⟨S1024, .f32⟩
  | .local _ .vmem, ⟨7, _⟩ => ⟨S1024x1, .bf16⟩
  | .local _ .vmem, ⟨8, _⟩ => ⟨S1, .f32⟩
  | .local _ .vmem, ⟨9, _⟩ => ⟨S8x64, .f32⟩
  | .local _ .vmem, ⟨10, _⟩ => ⟨S8x64, .f32⟩
  | _, _ => ⟨S64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S64x8x768_S64x8x768_0_0_0 : ∀ a, (![0, 0, 0] : Fin 3 → Nat) a + S64x8x768.size a ≤ S64x8x768.size a
  h_S64x8x768 : 0 < S64x8x768.numel
  inb_S64x768_S64x768_0_0 : ∀ a, (![0, 0] : Fin 2 → Nat) a + S64x768.size a ≤ S64x768.size a
  h_S64x768 : 0 < S64x768.numel
  shapeCasts_S64x768_S64x1x768 : S64x768.ShapeCasts S64x1x768
  shapeCasts_S64x1x768_S64x1x768 : S64x1x768.ShapeCasts S64x1x768
  broadcasts_S64x1x768_S64x8x768 : S64x1x768.Broadcasts S64x8x768
  concatenates_S64x8x768_S64x8x768_S64x8x1536_d2 : Shape.Concatenates [S64x8x768, S64x8x768] S64x8x1536 2
  shapeCasts_S64x8x1536_S512x1536 : S64x8x1536.ShapeCasts S512x1536
  inb_S1536x2048_S1536x2048_0_0 : ∀ a, (![0, 0] : Fin 2 → Nat) a + S1536x2048.size a ≤ S1536x2048.size a
  h_S1536x2048 : 0 < S1536x2048.numel
  shapeCasts_S1536x2048_S1536x2048 : S1536x2048.ShapeCasts S1536x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  shapeCasts_S512x1_S64x8 : S512x1.ShapeCasts S64x8
  transposes_S64x8_p1_0_S8x64 : S64x8.Transposes [1, 0] S8x64
  inb_S8x64_S8x64_0_0 : ∀ a, (![0, 0] : Fin 2 → Nat) a + S8x64.size a ≤ S8x64.size a
  h_S8x64 : 0 < S8x64.numel
  transposes_S512x64_S64x512_1_0 : S512x64.Transposes [1, 0] S64x512
  dot_S512x1536_S1536x2048_S512x2048_1_0_0_1_n_n_wf : DotDims.WF S512x1536 S1536x2048 S512x2048 [1] [0] [0] [1] [] []
  dot_S512x2048_S2048x1024_S512x1024_1_0_0_1_n_n_wf : DotDims.WF S512x2048 S2048x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x768.size a ≤ S64x512x768.size a
  hwx0_0 : ∀ i : grid0.Coords, EltTy.bits .f32 = 32 ∨ (Rect.block (s := S64x512x768) S64x8x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x2048.size a ≤ S1536x2048.size a
  hwx0_2 : ∀ i : grid0.Coords, EltTy.bits .bf16 = 32 ∨ (Rect.block (s := S1536x2048) S1536x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S1024x1.size a
  hwx0_6 : ∀ i : grid0.Coords, EltTy.bits .bf16 = 32 ∨ (Rect.block (s := S1024x1) S1024x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x64.size a ≤ S512x64.size a
  hwx0_8 : ∀ i : grid0.Coords, EltTy.bits .f32 = 32 ∨ (Rect.block (s := S512x64) S8x64.size (cc0_transform_8 i) (hinb0_8 i)).WholeWords (EltTy.packing .f32)

variable [Facts₀]

def dot_S512x1536_S1536x2048_S512x2048_1_0_0_1_n_n : DotDims S512x1536 S1536x2048 S512x2048 where
  lhsContracting := [1]
  rhsContracting := [0]
  lhsNonContracting := [0]
  rhsNonContracting := [1]
  lhsBatch := []
  rhsBatch := []
  wf := dot_S512x1536_S1536x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_arg1) S64x8x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1536x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S8x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x768 : Shape := ⟨2, ![64, 768]⟩
abbrev S64x512x768 : Shape := ⟨3, ![64, 512, 768]⟩
abbrev S1536x2048 : Shape := ⟨2, ![1536, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S64x1x768 : Shape := ⟨3, ![64, 1, 768]⟩
abbrev S64x512x1536 : Shape := ⟨3, ![64, 512, 1536]⟩
abbrev S32768x1536 : Shape := ⟨2, ![32768, 1536]⟩
abbrev S32768x2048 : Shape := ⟨2, ![32768, 2048]⟩
abbrev S1x2048 : Shape := ⟨2, ![1, 2048]⟩
abbrev S32768x1024 : Shape := ⟨2, ![32768, 1024]⟩
abbrev S1x1024 : Shape := ⟨2, ![1, 1024]⟩
abbrev S32768x1 : Shape := ⟨2, ![32768, 1]⟩
abbrev S1x1 : Shape := ⟨2, ![1, 1]⟩
abbrev S64x512 : Shape := ⟨2, ![64, 512]⟩

abbrev nBuf : Space → Nat
  | .hbm => 27
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S64x512x768, .f32⟩
  | .hbm, ⟨2, _⟩ => ⟨S1536x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S64x1x768, .f32⟩
  | .hbm, ⟨9, _⟩ => ⟨S64x512x768, .f32⟩
  | .hbm, ⟨10, _⟩ => ⟨S64x512x1536, .f32⟩
  | .hbm, ⟨11, _⟩ => ⟨S32768x1536, .f32⟩
  | .hbm, ⟨12, _⟩ => ⟨S32768x2048, .f32⟩
  | .hbm, ⟨13, _⟩ => ⟨S1x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1, .f32⟩
  | .hbm, ⟨23, _⟩ => ⟨S1x1, .f32⟩
  | .hbm, ⟨24, _⟩ => ⟨S32768x1, .f32⟩
  | .hbm, ⟨25, _⟩ => ⟨S32768x1, .f32⟩
  | .hbm, ⟨26, _⟩ => ⟨S64x512, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S64x768_S64x1x768_0_2 : S64x768.BroadcastsInDim S64x1x768 (![0, 2] : Fin 2 → Fin S64x1x768.rank)
  bcast_S64x1x768_S64x512x768_0_1_2 : S64x1x768.BroadcastsInDim S64x512x768 (![0, 1, 2] : Fin 3 → Fin S64x512x768.rank)
  concatenates_S64x512x768_S64x512x768_S64x512x1536_d2 : Shape.Concatenates [S64x512x768, S64x512x768] S64x512x1536 2
  shapeCasts_S64x512x1536_S32768x1536 : S64x512x1536.ShapeCasts S32768x1536
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S64x512 : S32768x1.ShapeCasts S64x512
  dot_S32768x1536_S1536x2048_S32768x2048_1_0_0_1_n_n_wf : DotDims.WF S32768x1536 S1536x2048 S32768x2048 [1] [0] [0] [1] [] []
  dot_S32768x2048_S2048x1024_S32768x1024_1_0_0_1_n_n_wf : DotDims.WF S32768x2048 S2048x1024 S32768x1024 [1] [0] [0] [1] [] []
  dot_S32768x1024_S1024x1_S32768x1_1_0_0_1_n_n_wf : DotDims.WF S32768x1024 S1024x1 S32768x1 [1] [0] [0] [1] [] []

variable [Facts₀]

def dot_S32768x1536_S1536x2048_S32768x2048_1_0_0_1_n_n : DotDims S32768x1536 S1536x2048 S32768x2048 where
  lhsContracting := [1]
  rhsContracting := [0]
  lhsNonContracting := [0]
  rhsNonContracting := [1]
  lhsBatch := []
  rhsBatch := []
  wf := dot_S32768x1536_S1536x2048_S32768x2048_1_0_0_1_n_n_wf
def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

class Facts : Prop extends Facts₀ where

variable [Facts]
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibDenseLayer.lean ====
/-
  A dense layer in the kernel's and in the host's spelling, and a concatenation on the last axis, read at an index.

  A dense layer sends a row x of cin numbers to cout numbers: unit q is the sum over k of x k times the weight at
  (k, q), plus the bias at q (`dense`). A kernel multiplies n rows into a zero accumulator, reads its weights through a
  reshape to their own shape, and adds the bias vector viewed as one row and repeated down the rows
  (`kdense_apply`). The host takes a general dot product and adds the bias broadcast along dimension 1 and then along
  both dimensions (`hdense_apply`). On the extended reals, read at (p, q), either is `dense` of row p of the input.
  A concatenation on the last axis of an a × b × c₁ and an a × b × c₂ array reads, at (p, q, i), the first at i when
  i < c₁ and the second at i − c₁ otherwise (`catLast_apply`; the joined extent is a separate variable with the
  equation c = c₁ + c₂ as a hypothesis, so that a literal need not be spelt as a sum). All over variable extents.
-/
import proofs.«144678_j42185168781654_1_alg».proof.Proof.LibPlainDot
import proofs.«144678_j42185168781654_1_alg».proof.Proof.LibMergeRows
import proofs.«144678_j42185168781654_1_alg».proof.Proof.LibRowBroadcasts
import Idealize.ShloMosaic.Lib.Pipeline.Value
import Idealize.ShloMosaic.Lib.ValueIdx
import Idealize.ShloMosaic.PureOps.Ideal.Laws

noncomputable section

namespace Cert.Lib.Dense

open Idealize.ShloMosaic Idealize.ShloMosaic.ValueIdx Cert.Lib
open scoped BigOperators

variable {n cin cout : Nat}

/-- Unit q of a dense layer before its activation: the row against column q of the weights, plus the bias at q. -/
def dense (x : Fin cin → EReal) (W : (⟨2, ![cin, cout]⟩ : Shape).Idx → EReal)
    (bias : (⟨1, ![cout]⟩ : Shape).Idx → EReal) (q : Fin cout) : EReal :=
  (∑ k : Fin cin, x k * W (ix2 k q)) + bias (ix1 q)

/-- The kernel's dense layer at (p, q). -/
theorem kdense_apply (wf : DotDims.WF ⟨2, ![n, cin]⟩ ⟨2, ![cin, cout]⟩ ⟨2, ![n, cout]⟩ [1] [0] [0] [1] [] [])
    {φ₁ φ₂ : FTy} (X : FVec Ideal ⟨2, ![n, cin]⟩ φ₁) (W : FVec Ideal ⟨2, ![cin, cout]⟩ φ₂)
    (bias : FVec Ideal ⟨1, ![cout]⟩ .f32)
    (hW : (⟨2, ![cin, cout]⟩ : Shape).ShapeCasts ⟨2, ![cin, cout]⟩)
    (hc : (⟨1, ![cout]⟩ : Shape).ShapeCasts ⟨2, ![1, cout]⟩)
    (hb : (⟨2, ![1, cout]⟩ : Shape).Broadcasts ⟨2, ![n, cout]⟩) (p : Fin n) (q : Fin cout) :
    addf (matmul (PlainDot.dims wf) none X (shapeCast ⟨2, ![cin, cout]⟩ W hW) (constant ⟨2, ![n, cout]⟩ .f32 0x00000000#32))
        (broadcastTo ⟨2, ![n, cout]⟩ (shapeCast ⟨2, ![1, cout]⟩ bias hc) hb) (ix2 p q)
      = dense (fun k => X (ix2 p k)) W bias q := by
  rw [shapeCast_self]
  simp only [addf, Ideal.addf_def]
  rw [PlainDot.matmul_zero_apply, Rows.bcastRow_apply, MergeRows.row_apply]
  rfl

/-- The host's dense layer at (p, q). -/
theorem hdense_apply (wf : DotDims.WF ⟨2, ![n, cin]⟩ ⟨2, ![cin, cout]⟩ ⟨2, ![n, cout]⟩ [1] [0] [0] [1] [] [])
    {φ₁ φ₂ : FTy} (X : FVec Ideal ⟨2, ![n, cin]⟩ φ₁) (W : FVec Ideal ⟨2, ![cin, cout]⟩ φ₂)
    (bias : FVec Ideal ⟨1, ![cout]⟩ .f32)
    (h1 : (⟨1, ![cout]⟩ : Shape).BroadcastsInDim ⟨2, ![1, cout]⟩ ![1])
    (h2 : (⟨2, ![1, cout]⟩ : Shape).BroadcastsInDim ⟨2, ![n, cout]⟩ ![0, 1]) (p : Fin n) (q : Fin cout) :
    addf (Host.dotGeneral (PlainDot.dims wf) none X W)
        (broadcastInDim ⟨2, ![n, cout]⟩ ![0, 1] h2 (broadcastInDim ⟨2, ![1, cout]⟩ ![1] h1 bias)) (ix2 p q)
      = dense (fun k => X (ix2 p k)) W bias q := by
  simp only [addf, Ideal.addf_def]
  rw [PlainDot.dotGeneral_apply, Rows.dimRow_apply]
  have e : broadcastInDim ⟨2, ![1, cout]⟩ ![1] h1 bias (ix2 (0 : Fin 1) q) = bias (ix1 q) :=
    broadcastInDim_apply _ h1 bias (ix2 (0 : Fin 1) q) (ix1 q) fun ax => by
      match ax with
      | ⟨0, _⟩ =>
        show q.val = if cout = 1 then 0 else q.val
        split
        · have := q.isLt; omega
        · rfl
  rw [e]
  rfl

/-- A concatenation on the last axis of an a × b × c₁ and an a × b × c₂ array, at (p, q, i). -/
theorem catLast_apply {α : Type} {a b c₁ c₂ c : Nat} (hc : c = c₁ + c₂)
    (x₁ : (⟨3, ![a, b, c₁]⟩ : Shape).Idx → α) (x₂ : (⟨3, ![a, b, c₂]⟩ : Shape).Idx → α)
    (h : Shape.Concatenates [(⟨3, ![a, b, c₁]⟩ : Shape), ⟨3, ![a, b, c₂]⟩] ⟨3, ![a, b, c]⟩ 2)
    (p : Fin a) (q : Fin b) (i : Fin c) :
    concatenate ⟨3, ![a, b, c]⟩ 2 [⟨⟨3, ![a, b, c₁]⟩, x₁⟩, ⟨⟨3, ![a, b, c₂]⟩, x₂⟩] h (ix3 p q i)
      = if hlt : i.val < c₁ then x₁ (ix3 p q ⟨i.val, hlt⟩)
        else x₂ (ix3 p q ⟨i.val - c₁, by have := i.isLt; omega⟩) := by
  split
  · next hlt =>
    exact concatenate_pair_apply_left 2 x₁ x₂ h (ix3 p q i) rfl (ix3 p q ⟨i.val, hlt⟩) fun ax => by
      match ax with
      | ⟨0, _⟩ => rfl
      | ⟨1, _⟩ => rfl
      | ⟨2, _⟩ => rfl
  · next hge =>
    exact concatenate_pair_apply_right 2 x₁ x₂ h (ix3 p q i) rfl rfl
      (ix3 p q ⟨i.val - c₁, by have := i.isLt; omega⟩)
      (fun ax hax => by
        match ax, hax with
        | ⟨0, _⟩, _ => rfl
        | ⟨1, _⟩, _ => rfl
        | ⟨2, _⟩, hax => exact absurd rfl hax)
      (by show (i.val - c₁) + c₁ = i.val; omega)

end Cert.Lib.Dense

end
-- ==== Proof.Mlp.lean ====
/-
  The score a three-layer perceptron gives one row, on the extended reals.

  A dense layer sends a row x of cin numbers to cout numbers: unit q is the sum over k of x k times the weight at
  (k, q), plus the bias at q. The scorer stacks three of them, 1536 → 2048 → 1024 → 1, with the hyperbolic tangent
  after the first two and nothing after the third. Its input row for batch entry b and memory slot m is the slot's 768
  features followed by the 768 features of the batch entry's query. Both programs compute, for every (b, m), the score of
  that row; the only differences are the order in which the rows are visited and where the result is laid down, so no law
  of arithmetic is needed to join them and nothing is assumed finite.
-/
import proofs.«144678_j42185168781654_1_alg».proof.Proof.LibDenseLayer

noncomputable section

namespace Cert.Mlp

open Idealize.ShloMosaic Idealize.ShloMosaic.ValueIdx Cert.Lib.Dense

/-- The score of a row of 1536 numbers: dense, tanh, dense, tanh, dense. -/
def score (x : Fin 1536 → EReal)
    (W1 : (⟨2, ![1536, 2048]⟩ : Shape).Idx → EReal) (b1 : (⟨1, ![2048]⟩ : Shape).Idx → EReal)
    (W2 : (⟨2, ![2048, 1024]⟩ : Shape).Idx → EReal) (b2 : (⟨1, ![1024]⟩ : Shape).Idx → EReal)
    (W3 : (⟨2, ![1024, 1]⟩ : Shape).Idx → EReal) (b3 : (⟨1, ![1]⟩ : Shape).Idx → EReal) : EReal :=
  dense (fun k => Ideal.tanh (dense (fun j => Ideal.tanh (dense x W1 b1 j)) W2 b2 k)) W3 b3 (0 : Fin 1)

/-- The scorer's input row for batch entry b and slot m, out of B queries and B × M slots: the slot's features, then
    the query's. -/
def attRow {B M : Nat} (q : (⟨2, ![B, 768]⟩ : Shape).Idx → EReal) (mem : (⟨3, ![B, M, 768]⟩ : Shape).Idx → EReal)
    (b : Fin B) (m : Fin M) (i : Fin 1536) : EReal :=
  if h : i.val < 768 then mem (ix3 b m ⟨i.val, h⟩) else q (ix2 b ⟨i.val - 768, by have := i.isLt; omega⟩)

/-- The scores as the reference lays them down: entry (b, m) is the score of slot m of batch entry b. -/
def scores (q : (⟨2, ![64, 768]⟩ : Shape).Idx → EReal) (mem : (⟨3, ![64, 512, 768]⟩ : Shape).Idx → EReal)
    (W1 : (⟨2, ![1536, 2048]⟩ : Shape).Idx → EReal) (b1 : (⟨1, ![2048]⟩ : Shape).Idx → EReal)
    (W2 : (⟨2, ![2048, 1024]⟩ : Shape).Idx → EReal) (b2 : (⟨1, ![1024]⟩ : Shape).Idx → EReal)
    (W3 : (⟨2, ![1024, 1]⟩ : Shape).Idx → EReal) (b3 : (⟨1, ![1]⟩ : Shape).Idx → EReal) :
    (⟨2, ![64, 512]⟩ : Shape).Idx → EReal :=
  fun idx => score (attRow q mem (idx 0) (idx 1)) W1 b1 W2 b2 W3 b3

/-- The scores as the kernel writes them before the final transposition: entry (m, b). -/
def scoresT (q : (⟨2, ![64, 768]⟩ : Shape).Idx → EReal) (mem : (⟨3, ![64, 512, 768]⟩ : Shape).Idx → EReal)
    (W1 : (⟨2, ![1536, 2048]⟩ : Shape).Idx → EReal) (b1 : (⟨1, ![2048]⟩ : Shape).Idx → EReal)
    (W2 : (⟨2, ![2048, 1024]⟩ : Shape).Idx → EReal) (b2 : (⟨1, ![1024]⟩ : Shape).Idx → EReal)
    (W3 : (⟨2, ![1024, 1]⟩ : Shape).Idx → EReal) (b3 : (⟨1, ![1]⟩ : Shape).Idx → EReal) :
    (⟨2, ![512, 64]⟩ : Shape).Idx → EReal :=
  fun idx => score (attRow q mem (idx 1) (idx 0)) W1 b1 W2 b2 W3 b3

end Cert.Mlp

end
-- ==== Proof.KernelPayload.lean ====
/-
  What the kernel's body stores at one grid point, read at an index.

  At a grid point the body holds a block of 8 memory slots for each of the 64 batch entries and all 64 queries. It
  lays the 512 (batch entry, slot) pairs out as rows, row 8 p + j for batch entry p and slot j of the block, each row the
  slot's features followed by the query's; runs the three dense layers on the rows; and turns the resulting column of
  512 scores into an 8 × 64 tile whose entry (j, p) is the score of row 8 p + j. Changes of float format are the
  identity on the extended reals, so entry (j, p) is the scorer applied to that row.
-/
import proofs.«144678_j42185168781654_1_alg».proof.Proof.Gen.KernelIdeal.Skeleton
import proofs.«144678_j42185168781654_1_alg».proof.Proof.Mlp

noncomputable section

namespace Cert.KernelIdeal.Payload

open Cert.KernelIdeal Idealize.ShloMosaic Idealize.ShloMosaic.ValueIdx Cert.Mlp Cert.Lib Cert.Lib.Dense

variable [Facts]
open Facts₀ Facts

/-- Row 8 p + j of the 512 rows. -/
abbrev row (p : Fin 64) (j : Fin 8) : Fin 512 := MergeRows.flatRow (show 512 = 64 * 8 from rfl) p j

/-- The 512 input rows of the first layer. -/
def rows (v0 : FVec Ideal S64x8x768 .f32) (v2 : FVec Ideal S64x768 .f32) : FVec Ideal S512x1536 .bf16 :=
  shapeCast S512x1536 (concatenate S64x8x1536 2 [⟨S64x8x768, truncf .bf16 v0 bitsLt_bf16_f32⟩, ⟨S64x8x768, broadcastTo S64x8x768 (shapeCast S64x1x768 (shapeCast S64x1x768 (truncf .bf16 v2 bitsLt_bf16_f32) shapeCasts_S64x768_S64x1x768) shapeCasts_S64x1x768_S64x1x768) broadcasts_S64x1x768_S64x8x768⟩] concatenates_S64x8x768_S64x8x768_S64x8x1536_d2) shapeCasts_S64x8x1536_S512x1536

/-- The first hidden layer's 512 × 2048 activations. -/
def hid1 (v0 : FVec Ideal S64x8x768 .f32) (v2 : FVec Ideal S64x768 .f32) (v9 : FVec Ideal S1536x2048 .bf16) (v12 : FVec Ideal S2048 .f32) : FVec Ideal S512x2048 .bf16 :=
  truncf .bf16 (tanh (addf (matmul dot_S512x1536_S1536x2048_S512x2048_1_0_0_1_n_n none (rows v0 v2) (shapeCast S1536x2048 v9 shapeCasts_S1536x2048_S1536x2048 : FVec Ideal S1536x2048 .bf16) (constant S512x2048 .f32 0x00000000#32)) (broadcastTo S512x2048 (shapeCast S1x2048 v12 shapeCasts_S2048_S1x2048) broadcasts_S1x2048_S512x2048))) bitsLt_bf16_f32

/-- The second hidden layer's 512 × 1024 activations. -/
def hid2 (v0 : FVec Ideal S64x8x768 .f32) (v2 : FVec Ideal S64x768 .f32) (v9 : FVec Ideal S1536x2048 .bf16) (v12 : FVec Ideal S2048 .f32) (v18 : FVec Ideal S2048x1024 .bf16) (v21 : FVec Ideal S1024 .f32) : FVec Ideal S512x1024 .bf16 :=
  truncf .bf16 (tanh (addf (matmul dot_S512x2048_S2048x1024_S512x1024_1_0_0_1_n_n none (hid1 v0 v2 v9 v12) (shapeCast S2048x1024 v18 shapeCasts_S2048x1024_S2048x1024 : FVec Ideal S2048x1024 .bf16) (constant S512x1024 .f32 0x00000000#32)) (broadcastTo S512x1024 (shapeCast S1x1024 v21 shapeCasts_S1024_S1x1024) broadcasts_S1x1024_S512x1024))) bitsLt_bf16_f32

/-- The column of 512 scores. -/
def outCol (v0 : FVec Ideal S64x8x768 .f32) (v2 : FVec Ideal S64x768 .f32) (v9 : FVec Ideal S1536x2048 .bf16) (v12 : FVec Ideal S2048 .f32) (v18 : FVec Ideal S2048x1024 .bf16) (v21 : FVec Ideal S1024 .f32) (v27 : FVec Ideal S1024x1 .bf16) (v30 : FVec Ideal S1 .f32) : FVec Ideal S512x1 .f32 :=
  addf (matmul dot_S512x1024_S1024x1_S512x1_1_0_0_1_n_n none (hid2 v0 v2 v9 v12 v18 v21) (shapeCast S1024x1 v27 shapeCasts_S1024x1_S1024x1 : FVec Ideal S1024x1 .bf16) (constant S512x1 .f32 0x00000000#32)) (broadcastTo S512x1 (shapeCast S1x1 v30 shapeCasts_S1_S1x1) broadcasts_S1x1_S512x1)

/-- The stored tile is the column of scores, cut into 64 runs of 8 and transposed. -/
theorem pay_eq (v0 : FVec Ideal S64x8x768 .f32) (v2 : FVec Ideal S64x768 .f32) (v9 : FVec Ideal S1536x2048 .bf16) (v12 : FVec Ideal S2048 .f32) (v18 : FVec Ideal S2048x1024 .bf16) (v21 : FVec Ideal S1024 .f32) (v27 : FVec Ideal S1024x1 .bf16) (v30 : FVec Ideal S1 .f32) :
    Gen.k0_pay1 (F := Ideal) v0 v2 v9 v12 v18 v21 v27 v30
      = transpose S8x64 [1, 0] (shapeCast S64x8 (outCol v0 v2 v9 v12 v18 v21 v27 v30) shapeCasts_S512x1_S64x8) transposes_S64x8_p1_0_S8x64 := rfl

/-- A query repeated over the 8 slots of a block reads, at (p, j, k), the query of batch entry p at k. -/
theorem queries_apply (v : FVec Ideal S64x768 .bf16) (p : Fin 64) (j : Fin 8) (k : Fin 768) :
    broadcastTo S64x8x768 (shapeCast S64x1x768 (shapeCast S64x1x768 v shapeCasts_S64x768_S64x1x768) shapeCasts_S64x1x768_S64x1x768) broadcasts_S64x1x768_S64x8x768 (ix3 p j k)
      = v (ix2 p k) := by
  rw [shapeCast_self]
  refine (broadcastTo_apply _ broadcasts_S64x1x768_S64x8x768 (ix3 p j k) (ix3 p (0 : Fin 1) k) fun ax => ?_).trans ?_
  · match ax with
    | ⟨0, _⟩ => show p.val = if (64 : Nat) = 1 then 0 else p.val; rw [if_neg (by decide)]
    | ⟨1, _⟩ => show (0 : Nat) = if (1 : Nat) = 1 then 0 else j.val; rw [if_pos rfl]
    | ⟨2, _⟩ => show k.val = if (768 : Nat) = 1 then 0 else k.val; rw [if_neg (by decide)]
  · exact shapeCast_apply v shapeCasts_S64x768_S64x1x768 (ix3 p (0 : Fin 1) k) (ix2 p k) (by
      rw [Shape.rowMajor_val_two, Shape.rowMajor_val_three]
      show p.val * 768 + k.val = (p.val * 1 + 0) * 768 + k.val
      omega)

/-- Row 8 p + j is slot j of batch entry p followed by that entry's query. -/
theorem rows_apply (v0 : FVec Ideal S64x8x768 .f32) (v2 : FVec Ideal S64x768 .f32) (p : Fin 64) (j : Fin 8) (i : Fin 1536) :
    rows v0 v2 (ix2 (row p j) i) = attRow v2 v0 p j i := by
  unfold rows
  rw [MergeRows.merge_apply (show 512 = 64 * 8 from rfl), catLast_apply (show 1536 = 768 + 768 from rfl)]
  unfold attRow
  by_cases hlt : i.val < 768
  · simp only [dif_pos hlt]
    rfl
  · simp only [dif_neg hlt]
    exact queries_apply _ p j _

theorem hid1_apply (v0 : FVec Ideal S64x8x768 .f32) (v2 : FVec Ideal S64x768 .f32) (v9 : FVec Ideal S1536x2048 .bf16) (v12 : FVec Ideal S2048 .f32) (r : Fin 512) (q : Fin 2048) :
    hid1 v0 v2 v9 v12 (ix2 r q) = Ideal.tanh (dense (fun i => rows v0 v2 (ix2 r i)) v9 v12 q) := by
  unfold hid1
  exact congrArg Ideal.tanh (kdense_apply dot_S512x1536_S1536x2048_S512x2048_1_0_0_1_n_n_wf (rows v0 v2) v9 v12 shapeCasts_S1536x2048_S1536x2048 shapeCasts_S2048_S1x2048 broadcasts_S1x2048_S512x2048 r q)

theorem hid2_apply (v0 : FVec Ideal S64x8x768 .f32) (v2 : FVec Ideal S64x768 .f32) (v9 : FVec Ideal S1536x2048 .bf16) (v12 : FVec Ideal S2048 .f32) (v18 : FVec Ideal S2048x1024 .bf16) (v21 : FVec Ideal S1024 .f32) (r : Fin 512) (q : Fin 1024) :
    hid2 v0 v2 v9 v12 v18 v21 (ix2 r q) = Ideal.tanh (dense (fun i => hid1 v0 v2 v9 v12 (ix2 r i)) v18 v21 q) := by
  unfold hid2
  exact congrArg Ideal.tanh (kdense_apply dot_S512x2048_S2048x1024_S512x1024_1_0_0_1_n_n_wf (hid1 v0 v2 v9 v12) v18 v21 shapeCasts_S2048x1024_S2048x1024 shapeCasts_S1024_S1x1024 broadcasts_S1x1024_S512x1024 r q)

theorem outCol_apply (v0 : FVec Ideal S64x8x768 .f32) (v2 : FVec Ideal S64x768 .f32) (v9 : FVec Ideal S1536x2048 .bf16) (v12 : FVec Ideal S2048 .f32) (v18 : FVec Ideal S2048x1024 .bf16) (v21 : FVec Ideal S1024 .f32) (v27 : FVec Ideal S1024x1 .bf16) (v30 : FVec Ideal S1 .f32) (r : Fin 512) :
    outCol v0 v2 v9 v12 v18 v21 v27 v30 (ix2 r (0 : Fin 1)) = dense (fun i => hid2 v0 v2 v9 v12 v18 v21 (ix2 r i)) v27 v30 (0 : Fin 1) := by
  unfold outCol
  exact kdense_apply dot_S512x1024_S1024x1_S512x1_1_0_0_1_n_n_wf (hid2 v0 v2 v9 v12 v18 v21) v27 v30 shapeCasts_S1024x1_S1024x1 shapeCasts_S1_S1x1 broadcasts_S1x1_S512x1 r (0 : Fin 1)

/-- A column of 512 numbers cut into 64 runs of 8 reads, at (p, j), the column at 8 p + j. -/
theorem runs_apply {α : Type} (y : S512x1.Idx → α) (p : Fin 64) (j : Fin 8) :
    shapeCast S64x8 y shapeCasts_S512x1_S64x8 (ix2 p j) = y (ix2 (row p j) (0 : Fin 1)) :=
  shapeCast_apply y shapeCasts_S512x1_S64x8 (ix2 p j) (ix2 (row p j) (0 : Fin 1)) (by
    rw [Shape.rowMajor_val_two, Shape.rowMajor_val_two]
    show (p.val * 8 + j.val) * 1 + 0 = p.val * 8 + j.val
    omega)

/-- Entry (j, p) of the stored tile is the score of slot j of batch entry p. -/
theorem pay_apply (v0 : FVec Ideal S64x8x768 .f32) (v2 : FVec Ideal S64x768 .f32) (v9 : FVec Ideal S1536x2048 .bf16) (v12 : FVec Ideal S2048 .f32) (v18 : FVec Ideal S2048x1024 .bf16) (v21 : FVec Ideal S1024 .f32) (v27 : FVec Ideal S1024x1 .bf16) (v30 : FVec Ideal S1 .f32) (j : Fin 8) (p : Fin 64) :
    Gen.k0_pay1 (F := Ideal) v0 v2 v9 v12 v18 v21 v27 v30 (ix2 j p) = score (attRow v2 v0 p j) v9 v12 v18 v21 v27 v30 := by
  rw [pay_eq, MergeRows.transpose_apply, runs_apply, outCol_apply]
  simp only [hid2_apply, hid1_apply, rows_apply]
  rfl

end Cert.KernelIdeal.Payload

end
-- ==== Proof.KernelArray.lean ====
/-
  The kernel's output array, and the program's result after the final transposition.

  Grid point t holds memory slots 8 t … 8 t + 7 of every batch entry (block t along the slot axis), all the queries and
  all the weights, and writes rows 8 t … 8 t + 7 of the 512 × 64 output. Row 8 t + j of the output at column p is the
  stored tile's entry (j, p), the score of slot 8 t + j of batch entry p. The 64 blocks of 8 rows tile the 512 rows, so
  after the last point the output array is the table of scores with slots along the rows; the host's transposition turns
  it into the table with batch entries along the rows. The weights reach the kernel through a change of float format,
  which is the identity on the extended reals.
-/
import proofs.«144678_j42185168781654_1_alg».proof.Proof.Gen.KernelIdeal.Frame
import proofs.«144678_j42185168781654_1_alg».proof.Proof.KernelPayload
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.Pipeline (Dat)
open Cert.Mlp Cert.Lib

variable (m : (ℓ : Loc nD τ sig) → Buf (Elt Ideal) ℓ) (ρ : Dev nD → PrngReg)

/-! ## Where each window's block sits -/

theorem idx_w0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 1) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 1) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 1) = 0 :=
  (by decide +kernel : ∀ t : Fin grid0.N, _)
theorem idx_w8 : ∀ t : Fin cfg0.N, win0_8.index t (0 : Fin 2) = t.val ∧ win0_8.index t (1 : Fin 2) = 0 :=
  (by decide +kernel : ∀ t : Fin grid0.N, _)

theorem lt_grid (t : Fin cfg0.N) : t.val < 64 := Nat.lt_of_lt_of_eq t.isLt N_0

/-! ## The arrays the region finds -/

/-- The first layer's weights reach the kernel unchanged. -/
theorem V_w1 (c : Dev nD) : (V m c main_v0 : S1536x2048.Idx → EReal) = m ((c : Thread nD τ).loc main_arg2) := by
  show StableHlo.after hostOps0 (fun b => m (c, b)) (Proc.devRef .tc main_v0) = _
  after_results
  rfl

/-- The second layer's weights reach the kernel unchanged. -/
theorem V_w2 (c : Dev nD) : (V m c main_v1 : S2048x1024.Idx → EReal) = m ((c : Thread nD τ).loc main_arg4) := by
  show StableHlo.after hostOps0 (fun b => m (c, b)) (Proc.devRef .tc main_v1) = _
  after_results
  rfl

/-- The third layer's weights reach the kernel unchanged. -/
theorem V_w3 (c : Dev nD) : (V m c main_v2 : S1024x1.Idx → EReal) = m ((c : Thread nD τ).loc main_arg6) := by
  show StableHlo.after hostOps0 (fun b => m (c, b)) (Proc.devRef .tc main_v2) = _
  after_results
  rfl

/-! ## The input blocks at a grid point -/

/-- The memory block at point t holds slots 8 t … 8 t + 7 of every batch entry. -/
theorem memBlock_apply (c : Dev nD) (t : Fin cfg0.N) (p : Fin 64) (j : Fin 8) (k : Fin 768) :
    (iblk m c 0 t : FVec Ideal S64x8x768 .f32) (ix3 p j k)
      = (m ((c : Thread nD τ).loc main_arg1) : S64x512x768.Idx → EReal) (ix3 p ⟨8 * t.val + j.val, by have := lt_grid t; have := j.isLt; omega⟩ k) := by
  obtain ⟨e0, e1, e2⟩ := idx_w0 t
  unfold iblk
  rw [View.read_apply]
  show V m c main_arg1 (((cfg0.win 0).blk t).view.emb (ix3 p j k)) = _
  rw [V_main_arg1]
  have e : ((cfg0.win 0).blk t).view.emb (ix3 p j k) = ix3 p ⟨8 * t.val + j.val, by have := lt_grid t; have := j.isLt; omega⟩ k := by
    funext a; apply Fin.ext
    match a with
    | ⟨0, _⟩ => show win0_0.index t (0 : Fin 3) * 64 + 1 * p.val = p.val; rw [e0]; omega
    | ⟨1, _⟩ => show win0_0.index t (1 : Fin 3) * 8 + 1 * j.val = 8 * t.val + j.val; rw [e1]; omega
    | ⟨2, _⟩ => show win0_0.index t (2 : Fin 3) * 768 + 1 * k.val = k.val; rw [e2]; omega
  rw [e]

/-- Every point holds all the queries. -/
theorem blk1 (c : Dev nD) (t : Fin cfg0.N) : (iblk m c 1 t : FVec Ideal S64x768 .f32) = m ((c : Thread nD τ).loc main_arg0) := by
  obtain ⟨e0, e1⟩ := idx_w1 t
  funext x
  unfold iblk
  rw [View.read_apply]
  show V m c main_arg0 (((cfg0.win 1).blk t).view.emb x) = _
  rw [V_main_arg0]
  have e : ((cfg0.win 1).blk t).view.emb x = x := by
    funext a; apply Fin.ext
    match a with
    | ⟨0, _⟩ => show win0_1.index t (0 : Fin 2) * 64 + 1 * (x 0).val = (x 0).val; rw [e0]; omega
    | ⟨1, _⟩ => show win0_1.index t (1 : Fin 2) * 768 + 1 * (x 1).val = (x 1).val; rw [e1]; omega
  rw [e]

/-- Every point holds the first layer's weights. -/
theorem blk2 (c : Dev nD) (t : Fin cfg0.N) : (iblk m c 2 t : FVec Ideal S1536x2048 .bf16) = m ((c : Thread nD τ).loc main_arg2) := by
  obtain ⟨e0, e1⟩ := idx_w2 t
  funext x
  unfold iblk
  rw [View.read_apply]
  show V m c main_v0 (((cfg0.win 2).blk t).view.emb x) = _
  rw [V_w1]
  have e : ((cfg0.win 2).blk t).view.emb x = x := by
    funext a; apply Fin.ext
    match a with
    | ⟨0, _⟩ => show win0_2.index t (0 : Fin 2) * 1536 + 1 * (x 0).val = (x 0).val; rw [e0]; omega
    | ⟨1, _⟩ => show win0_2.index t (1 : Fin 2) * 2048 + 1 * (x 1).val = (x 1).val; rw [e1]; omega
  rw [e]

/-- Every point holds the first layer's bias. -/
theorem blk3 (c : Dev nD) (t : Fin cfg0.N) : (iblk m c 3 t : FVec Ideal S2048 .f32) = m ((c : Thread nD τ).loc main_arg3) := by
  have e0 := idx_w3 t
  funext x
  unfold iblk
  rw [View.read_apply]
  show V m c main_arg3 (((cfg0.win 3).blk t).view.emb x) = _
  rw [V_main_arg3]
  have e : ((cfg0.win 3).blk t).view.emb x = x := by
    funext a; apply Fin.ext
    match a with
    | ⟨0, _⟩ => show win0_3.index t (0 : Fin 1) * 2048 + 1 * (x 0).val = (x 0).val; rw [e0]; omega
  rw [e]

/-- Every point holds the second layer's weights. -/
theorem blk4 (c : Dev nD) (t : Fin cfg0.N) : (iblk m c 4 t : FVec Ideal S2048x1024 .bf16) = m ((c : Thread nD τ).loc main_arg4) := by
  obtain ⟨e0, e1⟩ := idx_w4 t
  funext x
  unfold iblk
  rw [View.read_apply]
  show V m c main_v1 (((cfg0.win 4).blk t).view.emb x) = _
  rw [V_w2]
  have e : ((cfg0.win 4).blk t).view.emb x = x := by
    funext a; apply Fin.ext
    match a with
    | ⟨0, _⟩ => show win0_4.index t (0 : Fin 2) * 2048 + 1 * (x 0).val = (x 0).val; rw [e0]; omega
    | ⟨1, _⟩ => show win0_4.index t (1 : Fin 2) * 1024 + 1 * (x 1).val = (x 1).val; rw [e1]; omega
  rw [e]

/-- Every point holds the second layer's bias. -/
theorem blk5 (c : Dev nD) (t : Fin cfg0.N) : (iblk m c 5 t : FVec Ideal S1024 .f32) = m ((c : Thread nD τ).loc main_arg5) := by
  have e0 := idx_w5 t
  funext x
  unfold iblk
  rw [View.read_apply]
  show V m c main_arg5 (((cfg0.win 5).blk t).view.emb x) = _
  rw [V_main_arg5]
  have e : ((cfg0.win 5).blk t).view.emb x = x := by
    funext a; apply Fin.ext
    match a with
    | ⟨0, _⟩ => show win0_5.index t (0 : Fin 1) * 1024 + 1 * (x 0).val = (x 0).val; rw [e0]; omega
  rw [e]

/-- Every point holds the third layer's weights. -/
theorem blk6 (c : Dev nD) (t : Fin cfg0.N) : (iblk m c 6 t : FVec Ideal S1024x1 .bf16) = m ((c : Thread nD τ).loc main_arg6) := by
  obtain ⟨e0, e1⟩ := idx_w6 t
  funext x
  unfold iblk
  rw [View.read_apply]
  show V m c main_v2 (((cfg0.win 6).blk t).view.emb x) = _
  rw [V_w3]
  have e : ((cfg0.win 6).blk t).view.emb x = x := by
    funext a; apply Fin.ext
    match a with
    | ⟨0, _⟩ => show win0_6.index t (0 : Fin 2) * 1024 + 1 * (x 0).val = (x 0).val; rw [e0]; omega
    | ⟨1, _⟩ => show win0_6.index t (1 : Fin 2) * 1 + 1 * (x 1).val = (x 1).val; rw [e1]; omega
  rw [e]

/-- Every point holds the third layer's bias. -/
theorem blk7 (c : Dev nD) (t : Fin cfg0.N) : (iblk m c 7 t : FVec Ideal S1 .f32) = m ((c : Thread nD τ).loc main_arg7) := by
  have e0 := idx_w7 t
  funext x
  unfold iblk
  rw [View.read_apply]
  show V m c main_arg7 (((cfg0.win 7).blk t).view.emb x) = _
  rw [V_main_arg7]
  have e : ((cfg0.win 7).blk t).view.emb x = x := by
    funext a; apply Fin.ext
    match a with
    | ⟨0, _⟩ => show win0_7.index t (0 : Fin 1) * 1 + 1 * (x 0).val = (x 0).val; rw [e0]; omega
  rw [e]

/-! ## What a point writes back -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The body loads every block whole and stores one whole tile: the output buffer ends holding the stored tile. -/
theorem out_eq (x0 : Vec Ideal S64x8x768 .f32) (x1 : Vec Ideal S64x768 .f32) (x2 : Vec Ideal S1536x2048 .bf16) (x3 : Vec Ideal S2048 .f32) (x4 : Vec Ideal S2048x1024 .bf16) (x5 : Vec Ideal S1024 .f32) (x6 : Vec Ideal S1024x1 .bf16) (x7 : Vec Ideal S1 .f32) :
    out0_8 (F := Ideal) x0 x1 x2 x3 x4 x5 x6 x7 = k0_pay1 x0 x1 x2 x3 x4 x5 x6 x7 := by
  unfold out0_8
  rw [View.canon_unit_zero hz2]
  simp only [View.ld_unit_zero (S := S64x8x768) hz3, View.ld_unit_zero (S := S64x768) hz2, View.ld_unit_zero (S := S1536x2048) hz2,
    View.ld_unit_zero (S := S2048) hz1, View.ld_unit_zero (S := S2048x1024) hz2, View.ld_unit_zero (S := S1024) hz1,
    View.ld_unit_zero (S := S1024x1) hz2, View.ld_unit_zero (S := S1) hz1]

/-- The table of scores with slots along the rows, of the arrays the program was launched with. -/
abbrev kernelScores (c : Dev nD) : S512x64.Idx → EReal :=
  scoresT (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The tile stored at a point whose memory block holds slots 8 t … 8 t + 7: its entry y is the table's entry at row
    8 t + y₀, column y₁. -/
theorem tile_eq (q : S64x768.Idx → EReal) (mem : S64x512x768.Idx → EReal) (v0 : FVec Ideal S64x8x768 .f32)
    (W1 : S1536x2048.Idx → EReal) (b1 : S2048.Idx → EReal) (W2 : S2048x1024.Idx → EReal) (b2 : S1024.Idx → EReal)
    (W3 : S1024x1.Idx → EReal) (b3 : S1.Idx → EReal) (t : Nat) (ht : t < 64)
    (h0 : ∀ (p : Fin 64) (j : Fin 8) (k : Fin 768), v0 (ix3 p j k) = mem (ix3 p ⟨8 * t + j.val, by have := j.isLt; omega⟩ k))
    (y : S8x64.Idx) (i : S512x64.Idx) (hi0 : (i 0).val = 8 * t + (y 0).val) (hi1 : (i 1).val = (y 1).val) :
    k0_pay1 (F := Ideal) v0 q W1 b1 W2 b2 W3 b3 y = scoresT q mem W1 b1 W2 b2 W3 b3 i := by
  obtain ⟨j, p, rfl⟩ : ∃ (j : Fin 8) (p : Fin 64), y = ix2 j p := ⟨y 0, y 1, eq_ix2 y⟩
  have hb : 8 * t + j.val < 512 := by have := j.isLt; omega
  obtain ⟨r, b, rfl⟩ : ∃ (r : Fin 512) (b : Fin 64), i = ix2 r b := ⟨i 0, i 1, eq_ix2 i⟩
  obtain rfl : b = p := Fin.ext hi1
  obtain rfl : r = ⟨8 * t + j.val, hb⟩ := Fin.ext hi0
  rw [Payload.pay_apply]
  show score (attRow q v0 b j) W1 b1 W2 b2 W3 b3 = score (attRow q mem b ⟨8 * t + j.val, _⟩) W1 b1 W2 b2 W3 b3
  refine congrArg (fun x => score x W1 b1 W2 b2 W3 b3) (funext fun k => ?_)
  unfold attRow
  by_cases hlt : k.val < 768
  · simp only [dif_pos hlt]
    exact h0 b j _
  · simp only [dif_neg hlt]

/-- What point t writes back is block t of the table. -/
theorem flushed_eq (c : Dev nD) (t : Fin cfg0.N) :
    (dats m 0 c).flushed 8 t = ((cfg0.win 8).blk t).view.read (Elt Ideal) (kernelScores m c) := by
  show (cfg0.win 8).cut (grid0.coords t) ((dats m 0 c).after 8 t) = _
  rw [after0_8, out_eq, blk1, blk2, blk3, blk4, blk5, blk6, blk7]
  obtain ⟨e0, e1⟩ := idx_w8 t
  funext y
  show k0_pay1 (F := Ideal) (iblk m c 0 t) (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) y
    = kernelScores m c (((cfg0.win 8).blk t).view.emb y)
  exact tile_eq (m ((c : Thread nD τ).loc main_arg0)) (m ((c : Thread nD τ).loc main_arg1)) (iblk m c 0 t)
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    t.val (lt_grid t) (memBlock_apply m c t) y (((cfg0.win 8).blk t).view.emb y)
    (by show win0_8.index t (0 : Fin 2) * 8 + 1 * (y 0).val = 8 * t.val + (y 0).val; rw [e0]; omega)
    (by show win0_8.index t (1 : Fin 2) * 64 + 1 * (y 1).val = (y 1).val; rw [e1]; omega)

/-! ## The blocks tile the output -/

theorem mem_blk (t : Fin cfg0.N) (i : S512x64.Idx) :
    i ∈ ((cfg0.win 8).blk t).view.set ↔ ∀ a : Fin 2, win0_8.index t a * S8x64.size a ≤ (i a).val ∧ (i a).val < win0_8.index t a * S8x64.size a + S8x64.size a := by
  show i ∈ ((View.whole main_v3).slice (win0_8.rect t)).set ↔ _
  rw [View.set_slice_whole, Rect.mem_set_unit]
  exact Iff.rfl

/-- Row r of the output is written by point r / 8. -/
theorem cover (i : S512x64.Idx) : ∃ t : Fin cfg0.N, (cfg0.win 8).flush t = true ∧ i ∈ ((cfg0.win 8).blk t).view.set := by
  have h0 : (i 0).val < 512 := (i 0).isLt
  have h1 : (i 1).val < 64 := (i 1).isLt
  obtain ⟨t, ht⟩ : ∃ t : Fin cfg0.N, t.val = (i 0).val / 8 :=
    ⟨⟨(i 0).val / 8, by show (i 0).val / 8 < grid0.N; rw [N_0]; omega⟩, rfl⟩
  obtain ⟨e0, e1⟩ := idx_w8 t
  refine ⟨t, flush0_8 t, ?_⟩
  rw [mem_blk]
  intro a
  match a with
  | ⟨0, _⟩ =>
    show win0_8.index t (0 : Fin 2) * 8 ≤ (i 0).val ∧ (i 0).val < win0_8.index t (0 : Fin 2) * 8 + 8
    rw [e0, ht]; omega
  | ⟨1, _⟩ =>
    show win0_8.index t (1 : Fin 2) * 64 ≤ (i 1).val ∧ (i 1).val < win0_8.index t (1 : Fin 2) * 64 + 64
    rw [e1]; omega

/-- After the last point the output array is the table of scores with slots along the rows. -/
theorem final (c : Dev nD) : (dats m 0 c).arrAt 8 cfg0.N = kernelScores m c :=
  (dats m 0 c).arrAt_eq_of_cover 8 (kernelScores m c) (fun t _ => flushed_eq m c t) cover

end Cert.KernelIdeal.ArrayValue

end
-- ==== Proof.KernelRun.lean ====
/-
  The kernel program's run, read: its result is the table of scores.

  The program ends by transposing the kernel's 512 × 64 output; entry (b, m) of the result is the output's entry
  (m, b), the score of slot m of batch entry b.
-/
import proofs.«144678_j42185168781654_1_alg».proof.Proof.KernelArray

noncomputable section

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.Pipeline (Dat)
open Cert.Mlp Cert.Lib

variable (m : (ℓ : Loc nD τ sig) → Buf (Elt Ideal) ℓ) (ρ : Dev nD → PrngReg)

/-- The table of scores with batch entries along the rows, of the arrays the program was launched with. -/
abbrev resultScores (c : Dev nD) : S64x512.Idx → EReal :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Transposing the table with slots along the rows gives the table with batch entries along the rows. -/
theorem transpose_scores (c : Dev nD) (h : S512x64.Transposes [1, 0] S64x512) :
    transpose S64x512 [1, 0] (kernelScores m c) h = resultScores m c := by
  funext idx
  obtain ⟨b, r, rfl⟩ : ∃ (b : Fin 64) (r : Fin 512), idx = ix2 b r := ⟨idx 0, idx 1, eq_ix2 idx⟩
  exact MergeRows.transpose_apply (kernelScores m c) h b r

/-- The result buffer after the line that follows the region. -/
theorem tail_eq (c : Dev nD) :
    Pipeline.afterTail₀ cfgs (dats m) 0 (V0 m) [hostOps1] c main_v4 = resultScores m c := by
  have hA : Pipeline.withArrays spec0 c (V0 m c) (fun w => (dats m 0 c).arrAt w cfg0.N) (Proc.devRef .tc main_v3) = kernelScores m c :=
    (Pipeline.withArrays_arr spec0 launch0.win.arr_inj c _ _ 8).trans (final m c)
  unfold Pipeline.afterTail₀
  show StableHlo.after hostOps1 _ (Proc.devRef .tc main_v4) = _
  after_results
  show transpose S64x512 [1, 0] (Pipeline.withArrays spec0 c (V0 m c) (fun w => (dats m 0 c).arrAt w cfg0.N) (Proc.devRef .tc main_v3)) _ = _
  rw [hA]
  exact transpose_scores m c _

/-- Every weakly fair execution of the kernel program ends with the result buffer at the table of scores and the
    argument arrays as launched. -/
theorem run : θ_run defs (onTc (τ := τ) (main (F := Ideal))) ⟨m, fun _ => 0, ρ⟩ (fun r => ∀ c : Dev nD,
      r.2.mem ((c.tc : Thread nD τ).loc main_v4) = resultScores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v4 (Pipeline.mem_restRefs_of main_v4 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c)))⟩)
    (run_main m ρ)

end Cert.KernelIdeal.ArrayValue

end
-- ==== Proof.RefValue.lean ====
/-
  The reference's result is the table of scores.

  The reference lays all 64 × 512 (batch entry, slot) pairs out as rows, row 512 b + m for slot m of batch entry b, each
  the slot's features followed by the entry's query (the query first given a unit middle axis, then repeated over the
  512 slots), runs the three dense layers on the 32768 rows, and reads the column of scores back as a 64 × 512 table:
  entry (b, m) is the score of row 512 b + m.
-/
import proofs.«144678_j42185168781654_1_alg».proof.Proof.Gen.ReferenceIdeal.Read
import proofs.«144678_j42185168781654_1_alg».proof.Proof.Mlp

noncomputable section

namespace Cert.ReferenceIdeal.RefValue

open Cert.ReferenceIdeal Cert.ReferenceIdeal.Read Idealize.ShloMosaic Idealize.ShloMosaic.ValueIdx
open Cert.Mlp Cert.Lib Cert.Lib.Dense
open Facts₀ Facts

/-- Row 512 b + m of the 32768 rows. -/
abbrev row (b : Fin 64) (m : Fin 512) : Fin 32768 := MergeRows.flatRow (show 32768 = 64 * 512 from rfl) b m

/-- Row 512 b + m is slot m of batch entry b followed by that entry's query. -/
theorem rows_apply (x0 : FVec Ideal S64x768 .f32) (x1 : FVec Ideal S64x512x768 .f32) (b : Fin 64) (m : Fin 512) (i : Fin 1536) :
    val_main_v3 (F := Ideal) x0 x1 (ix2 (row b m) i) = attRow x0 x1 b m i := by
  unfold val_main_v3 val_main_v2
  rw [MergeRows.merge_apply (show 32768 = 64 * 512 from rfl), catLast_apply (show 1536 = 768 + 768 from rfl)]
  unfold attRow
  by_cases hlt : i.val < 768
  · simp only [dif_pos hlt]
  · simp only [dif_neg hlt]
    rw [val_main_v1_apply, val_main_v0_apply]
    exact congrArg x0 (funext fun ax => by
      match ax with
      | ⟨0, _⟩ => rfl
      | ⟨1, _⟩ => rfl)

theorem hid1_apply (x0 : FVec Ideal S64x768 .f32) (x1 : FVec Ideal S64x512x768 .f32) (x2 : FVec Ideal S1536x2048 .f32) (x3 : FVec Ideal S2048 .f32) (r : Fin 32768) (q : Fin 2048) :
    val_main_v8 (F := Ideal) x0 x1 x2 x3 (ix2 r q) = Ideal.tanh (dense (fun i => val_main_v3 (F := Ideal) x0 x1 (ix2 r i)) x2 x3 q) := by
  unfold val_main_v8 val_main_v7 val_main_v4 val_main_v6 val_main_v5
  exact congrArg Ideal.tanh (hdense_apply dot_S32768x1536_S1536x2048_S32768x2048_1_0_0_1_n_n_wf (val_main_v3 (F := Ideal) x0 x1) x2 x3 bcast_S2048_S1x2048_1 bcast_S1x2048_S32768x2048_0_1 r q)

theorem hid2_apply (x0 : FVec Ideal S64x768 .f32) (x1 : FVec Ideal S64x512x768 .f32) (x2 : FVec Ideal S1536x2048 .f32) (x3 : FVec Ideal S2048 .f32) (x4 : FVec Ideal S2048x1024 .f32) (x5 : FVec Ideal S1024 .f32) (r : Fin 32768) (q : Fin 1024) :
    val_main_v13 (F := Ideal) x0 x1 x2 x3 x4 x5 (ix2 r q) = Ideal.tanh (dense (fun i => val_main_v8 (F := Ideal) x0 x1 x2 x3 (ix2 r i)) x4 x5 q) := by
  unfold val_main_v13 val_main_v12 val_main_v9 val_main_v11 val_main_v10
  exact congrArg Ideal.tanh (hdense_apply dot_S32768x2048_S2048x1024_S32768x1024_1_0_0_1_n_n_wf (val_main_v8 (F := Ideal) x0 x1 x2 x3) x4 x5 bcast_S1024_S1x1024_1 bcast_S1x1024_S32768x1024_0_1 r q)

theorem out_apply (x0 : FVec Ideal S64x768 .f32) (x1 : FVec Ideal S64x512x768 .f32) (x2 : FVec Ideal S1536x2048 .f32) (x3 : FVec Ideal S2048 .f32) (x4 : FVec Ideal S2048x1024 .f32) (x5 : FVec Ideal S1024 .f32) (x6 : FVec Ideal S1024x1 .f32) (x7 : FVec Ideal S1 .f32) (r : Fin 32768) :
    val_main_v17 (F := Ideal) x0 x1 x2 x3 x4 x5 x6 x7 (ix2 r (0 : Fin 1)) = dense (fun i => val_main_v13 (F := Ideal) x0 x1 x2 x3 x4 x5 (ix2 r i)) x6 x7 (0 : Fin 1) := by
  unfold val_main_v17 val_main_v14 val_main_v16 val_main_v15
  exact hdense_apply dot_S32768x1024_S1024x1_S32768x1_1_0_0_1_n_n_wf (val_main_v13 (F := Ideal) x0 x1 x2 x3 x4 x5) x6 x7 bcast_S1_S1x1_1 bcast_S1x1_S32768x1_0_1 r (0 : Fin 1)

/-- A column of 32768 numbers read as a 64 × 512 table reads, at (b, m), the column at 512 b + m. -/
theorem table_apply {α : Type} (y : S32768x1.Idx → α) (b : Fin 64) (m : Fin 512) :
    shapeCast S64x512 y shapeCasts_S32768x1_S64x512 (ix2 b m) = y (ix2 (row b m) (0 : Fin 1)) :=
  shapeCast_apply y shapeCasts_S32768x1_S64x512 (ix2 b m) (ix2 (row b m) (0 : Fin 1)) (by
    rw [Shape.rowMajor_val_two, Shape.rowMajor_val_two]
    show (b.val * 512 + m.val) * 1 + 0 = b.val * 512 + m.val
    omega)

/-- The reference's result array is the table of scores. -/
theorem result_eq (x0 : FVec Ideal S64x768 .f32) (x1 : FVec Ideal S64x512x768 .f32) (x2 : FVec Ideal S1536x2048 .f32) (x3 : FVec Ideal S2048 .f32) (x4 : FVec Ideal S2048x1024 .f32) (x5 : FVec Ideal S1024 .f32) (x6 : FVec Ideal S1024x1 .f32) (x7 : FVec Ideal S1 .f32) :
    val_main_v18 (F := Ideal) x0 x1 x2 x3 x4 x5 x6 x7 = scores x0 x1 x2 x3 x4 x5 x6 x7 := by
  funext idx
  obtain ⟨b, m, rfl⟩ : ∃ (b : Fin 64) (m : Fin 512), idx = ix2 b m := ⟨idx 0, idx 1, eq_ix2 idx⟩
  unfold val_main_v18
  rw [table_apply, out_apply]
  simp only [hid2_apply, hid1_apply, rows_apply]
  rfl

end Cert.ReferenceIdeal.RefValue

end
-- ==== Proof.lean ====
/-
  The kernel scores every (batch entry, memory slot) pair with a three-layer perceptron — 1536 → 2048 → 1024 → 1, the
  hyperbolic tangent after the first two layers — whose input row is the slot's 768 features followed by the 768 features
  of the batch entry's query. It walks the 512 slots in 64 blocks of 8, scores the 64 × 8 pairs of a block as 512 rows,
  writes each block's scores as 8 rows of a 512 × 64 array, and the program transposes that array at the end. The
  reference lays all 64 × 512 pairs out as 32768 rows, runs the same three layers once, and reads the column of scores
  back as the 64 × 512 result. On the extended reals a change of float format is the identity, a product into a zero
  accumulator and the host's dot product are the same sum, and the kernel's and the host's tangent are one function, so
  entry (b, m) of either result is the same expression of the arguments (Proof/Mlp.lean: score of the row of slot m of
  batch entry b): the two programs differ only in the order the rows are visited and in where a score is laid down. No law
  of arithmetic is used, and the precondition is never opened.

  Proof/LibDenseLayer.lean reads one dense layer in either spelling, and the concatenation, at an index; Proof/KernelPayload.lean
  the tile the kernel's body stores; Proof/KernelArray.lean and Proof/KernelRun.lean the kernel's output array after the
  last grid point and the program's result after the transposition; Proof/RefValue.lean the reference's result. The
  three frames are the generated ones (the reference's is its run with the result dropped); the idealization rewrote
  nothing, so there is nothing to preserve.
-/
import proofs.«144678_j42185168781654_1_alg».proof.Defs
import proofs.«144678_j42185168781654_1_alg».proof.Proof.Gen.Kernel
import proofs.«144678_j42185168781654_1_alg».proof.Proof.Gen.Kernel.Skeleton
import proofs.«144678_j42185168781654_1_alg».proof.Proof.Gen.Kernel.Launch
import proofs.«144678_j42185168781654_1_alg».proof.Proof.Gen.Kernel.Points
import proofs.«144678_j42185168781654_1_alg».proof.Proof.Gen.Kernel.Frame
import proofs.«144678_j42185168781654_1_alg».proof.Proof.Gen.KernelIdeal
import proofs.«144678_j42185168781654_1_alg».proof.Proof.Gen.KernelIdeal.Skeleton
import proofs.«144678_j42185168781654_1_alg».proof.Proof.Gen.KernelIdeal.Launch
import proofs.«144678_j42185168781654_1_alg».proof.Proof.Gen.KernelIdeal.Points
import proofs.«144678_j42185168781654_1_alg».proof.Proof.Gen.KernelIdeal.Frame
import proofs.«144678_j42185168781654_1_alg».proof.Proof.Gen.ReferenceIdeal
import proofs.«144678_j42185168781654_1_alg».proof.Proof.Gen.Pre_finite_inputs
import proofs.«144678_j42185168781654_1_alg».proof.Proof.Gen.ReferenceIdeal.Run
import proofs.«144678_j42185168781654_1_alg».proof.Proof.Gen.ReferenceIdeal.Read
import proofs.«144678_j42185168781654_1_alg».proof.Proof.KernelRun
import proofs.«144678_j42185168781654_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments both programs end with the table of scores of those arguments. -/
theorem algebraic : Cert.algebraic_KernelIdeal_ReferenceIdeal := by
  intro m ρ m' ρ' _ hagree
  refine ⟨fun c => Cert.KernelIdeal.ArrayValue.resultScores m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
